-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S2 : Shape := ⟨1, ![2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S16777216x2 .f32) (main_arg1 : FVec F S2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S2 .f32 := Host.absf main_arg1
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  main_v8
-- ==== Kernel.lean ====
abbrev S16777216x2 : Shape := ⟨2, ![16777216, 2]⟩
abbrev S2 : Shape := ⟨1, ![2]⟩
abbrev S16777216 : Shape := ⟨1, ![16777216]⟩
abbrev S16384x2 : Shape := ⟨2, ![16384, 2]⟩
abbrev S16384 : Shape := ⟨1, ![16384]⟩
abbrev S1x2 : Shape := ⟨2, ![1, 2]⟩

abbrev nBuf : Space → Nat
  | .hbm => 3
  | .vmem => 5
  | .smem => 0
  | _ => 0

abbrev bufTy : (tb : Table) → Fin (tcTables nBuf tb) → BufTy
  | .hbm, ⟨0, _⟩ => ⟨S16777216x2, .f32⟩
  | .hbm, ⟨1, _⟩ => ⟨S2, .f32⟩
  | .hbm, ⟨2, _⟩ => ⟨S16777216, .f32⟩
  | .local _ .vmem, ⟨0, _⟩ => ⟨S16384x2, .f32⟩
  | .local _ .vmem, ⟨1, _⟩ => ⟨S16384x2, .f32⟩
  | .local _ .vmem, ⟨2, _⟩ => ⟨S2, .f32⟩
  | .local _ .vmem, ⟨3, _⟩ => ⟨S16384, .f32⟩
  | .local _ .vmem, ⟨4, _⟩ => ⟨S16384, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16384x2_S16384x2_0_0 : ∀ a, (![0, 0] : Fin 2 → Nat) a + S16384x2.size a ≤ S16384x2.size a
  h_S16384x2 : 0 < S16384x2.numel
  inb_S2_S2_0 : ∀ a, (![0] : Fin 1 → Nat) a + S2.size a ≤ S2.size a
  h_S2 : 0 < S2.numel
  shapeCasts_S2_S1x2 : S2.ShapeCasts S1x2
  broadcasts_S1x2_S16384x2 : S1x2.Broadcasts S16384x2
  reduces_S16384x2_S16384 : S16384x2.Reduces [1] S16384
  inb_S16384_S16384_0 : ∀ a, (![0] : Fin 1 → Nat) a + S16384.size a ≤ S16384.size a
  h_S16384 : 0 < S16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x2.size a ≤ S16777216x2.size a
  hwx0_0 : ∀ i : grid0.Coords, EltTy.bits .f32 = 32 ∨ (Rect.block (s := S16777216x2) S16384x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2.size a ≤ S2.size a
  hwx0_1 : ∀ i : grid0.Coords, EltTy.bits .f32 = 32 ∨ (Rect.block (s := S2) S2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S16777216.size a
  hwx0_2 : ∀ i : grid0.Coords, EltTy.bits .f32 = 32 ∨ (Rect.block (s := S16777216) S16384.size (cc0_transform_2 i) (hinb0_2 i)).WholeWords (EltTy.packing .f32)

variable [Facts₀]

abbrev win0_0 : Pipeline.Window sig grid0 :=
  Pipeline.Window.ofSpec (Memref.whole main_arg0) S16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S2 : Shape := ⟨1, ![2]⟩
abbrev S1x2 : Shape := ⟨2, ![1, 2]⟩
abbrev S_ : Shape := ⟨0, ![]⟩
abbrev S16777216 : Shape := ⟨1, ![16777216]⟩

abbrev nBuf : Space → Nat
  | .hbm => 18
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S2, .f32⟩
  | .hbm, ⟨2, _⟩ => ⟨S1x2, .f32⟩
  | .hbm, ⟨3, _⟩ => ⟨S16777216x2, .f32⟩
  | .hbm, ⟨4, _⟩ => ⟨S16777216x2, .f32⟩
  | .hbm, ⟨5, _⟩ => ⟨S16777216x2, .f32⟩
  | .hbm, ⟨6, _⟩ => ⟨S_, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S16777216, .f32⟩
  | .hbm, ⟨17, _⟩ => ⟨S16777216, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16777216x2_0_1 : S1x2.BroadcastsInDim S16777216x2 (![0, 1] : Fin 2 → Fin S16777216x2.rank)
  reducesTo_S16777216x2_S16777216_d1 : S16777216x2.ReducesTo [1] S16777216
  h_S_ : 0 < S_.numel
  bcast_S_S16777216 : S_.BroadcastsInDim S16777216 (![] : Fin 0 → Fin S16777216.rank)

variable [Facts₀]

class Facts : Prop extends Facts₀ where

variable [Facts]
-- ==== Proof.Density.lean ====
/-
  The function both programs compute, stated once over the extended reals.

  For a point `x_r` of the plane (row `r` of the [16777216, 2] array) and a centre `mu`, the value is
      one * exp (negHalf * ((∑ k : Fin 2, (x_r k - mu k) * (x_r k - mu k)) * scale)),
  the unnormalised isotropic Gaussian density `exp (-(scale / 2) * |x_r - mu|^2)`: the quadratic form of a covariance
  that is a multiple of the identity collapses to the squared distance. The three constants `one`, `negHalf` and `scale`
  are kept as the binary32 words both programs print (1, -1/2 and the float nearest 27/50); they are the same words on
  both sides, so their values are never needed. The squared distance is a sum of two products of extended reals; it is
  written as a sum over `Fin 2` so that either program's reduction over the last axis meets it term by term.
-/
import Idealize.ShloMosaic.PureOps.Ideal
import Idealize.ShloMosaic.PureOps.Ideal.Laws
import Idealize.ShloMosaic.Lib.ValueIdx

noncomputable section

namespace Cert.Density

open Idealize.ShloMosaic Idealize.ShloMosaic.ValueIdx

/-- The density at one point, from the point's two coordinates and the centre's two coordinates. -/
def atPoint (xr mu : Fin 2 → EReal) : EReal :=
  Ideal.ofBits .f32 0x3F800000#32 *
    Ideal.exp (Ideal.ofBits .f32 0xBF000000#32 *
      ((∑ k : Fin 2, (xr k - mu k) * (xr k - mu k)) * Ideal.ofBits .f32 0x3F0A3D71#32))

/-- The density of row `r` of an array of points. -/
def atRow (x : (⟨2, ![16777216, 2]⟩ : Shape).Idx → EReal) (mu : (⟨1, ![2]⟩ : Shape).Idx → EReal) (r : Fin 16777216) : EReal :=
  atPoint (fun k => x (ix2 r k)) (fun k => mu (ix1 k))

/-- The whole result: entry `i` is the density of row `i`. -/
def ofArray (x : (⟨2, ![16777216, 2]⟩ : Shape).Idx → EReal) (mu : (⟨1, ![2]⟩ : Shape).Idx → EReal) :
    (⟨1, ![16777216]⟩ : Shape).Idx → EReal :=
  fun i => atRow x mu (i 0)

theorem ofArray_apply (x : (⟨2, ![16777216, 2]⟩ : Shape).Idx → EReal) (mu : (⟨1, ![2]⟩ : Shape).Idx → EReal)
    (i : (⟨1, ![16777216]⟩ : Shape).Idx) : ofArray x mu i = atRow x mu (i 0) := rfl

/-- Two points with the same coordinates, against centres with the same coordinates, have the same density. -/
theorem atPoint_congr {xr xr' mu mu' : Fin 2 → EReal} (hx : ∀ k, xr k = xr' k) (hmu : ∀ k, mu k = mu' k) :
    atPoint xr mu = atPoint xr' mu' := by
  rw [show xr = xr' from funext hx, show mu = mu' from funext hmu]

end Cert.Density

end
-- ==== Proof.BlockDensity.lean ====
/-
  What the kernel body computes for one block of 16384 rows.

  The body loads a [16384, 2] block of points and the centre, subtracts the centre (re-laid as one row and broadcast down
  the block) from every point, squares, adds each row's two squares along the last axis, scales, multiplies by -1/2,
  exponentiates and multiplies by one. At row `r` of the block this is `Density.atPoint` of the block's row `r` and the
  centre: the lane sum over the axis of extent two is the sum over `Fin 2` of the row's squares, and the broadcast row
  reads the centre at the column.
-/
import proofs.«116027_j1391569403986_2_alg».proof.Proof.Gen.KernelIdeal.Value
import proofs.«116027_j1391569403986_2_alg».proof.Proof.Density
import Idealize.ShloMosaic.Lib.ValueLayout
import Idealize.ShloMosaic.PureOps.Ideal.Laws

noncomputable section

namespace Cert.KernelIdeal.Dens

open Cert.KernelIdeal Cert.KernelIdeal.Gen Cert.KernelIdeal.Value
open Idealize.ShloMosaic Idealize.ShloMosaic.ValueIdx

/-- The centre, re-laid as a [1, 2] row and broadcast over the block's rows, reads at (r, k) the centre's coordinate k. -/
theorem centre_apply (P1 : FVec Ideal S2 .f32) (r : Fin 16384) (k : Fin 2) :
    broadcastTo S16384x2 (shapeCast S1x2 P1 shapeCasts_S2_S1x2) broadcasts_S1x2_S16384x2 (ix2 r k) = P1 (ix1 k) :=
  (broadcastTo_1b_ab_apply (shapeCast S1x2 P1 shapeCasts_S2_S1x2) broadcasts_S1x2_S16384x2 r k).trans
    (shapeCast_a_1a_apply P1 shapeCasts_S2_S1x2 (0 : Fin 1) k)

/-- The sum along the last axis, at row r, is the sum of the row's two entries. -/
theorem rowSum_apply (v : FVec Ideal S16384x2 .f32) (r : Fin 16384) :
    multiReduction .add [1] S16384 v 0x00000000#32 reduces_S16384x2_S16384 (.inl rfl) rfl (ix2_0 (ix1 r))
      = ∑ k : Fin 2, v (ix2 r k) := by
  refine (Ideal.multiReduction_add_single v 0x00000000#32 reduces_S16384x2_S16384 (.inl rfl) rfl (ix2_0 (ix1 r))).trans ?_
  show ∑ k : Fin 2, v (reduces_S16384x2_S16384.lift (ix2_0 (ix1 r)) k) = ∑ k : Fin 2, v (ix2 r k)
  refine Finset.sum_congr rfl fun k _ => congrArg v ?_
  funext a
  apply Fin.ext
  match a with
  | ⟨0, _⟩ => rfl
  | ⟨1, _⟩ => rfl

/-- Row r of what the body leaves in the output block is the density of row r of the input block. -/
theorem block_row (P0 : Vec Ideal S16384x2 .f32) (P1 : Vec Ideal S2 .f32) (r : Fin 16384) :
    E2 (F := Ideal) P0 P1 (ix1 r) = Cert.Density.atPoint (fun k => P0 (ix2 r k)) (fun k => P1 (ix1 k)) := by
  show FloatOps.mulf (Scalar.ofBits .f32 0x3F800000#32) (FloatOps.exp (FloatOps.mulf (Scalar.ofBits .f32 0xBF000000#32)
      (FloatOps.mulf (multiReduction .add [1] S16384 _ 0x00000000#32 reduces_S16384x2_S16384 (.inl rfl) rfl (ix2_0 (ix1 r)))
        (Scalar.ofBits .f32 0x3F0A3D71#32)))) = _
  rw [rowSum_apply]
  simp only [mulf_apply, subf_apply, centre_apply]
  rfl

end Cert.KernelIdeal.Dens

end
-- ==== Proof.KernelDensity.lean ====
/-
  The kernel's result array is the density of every row.

  The grid has 1024 points; point `t` stages rows `16384 t … 16384 t + 16383` of the points (both columns) and the whole
  centre, and writes back entries `16384 t … 16384 t + 16383` of the result. So entry `16384 t + r` of what point `t`
  writes back is the density of row `r` of its input block, which is row `16384 t + r` of the argument: every point
  writes a block of one whole-array function, `Density.ofArray` of the two arguments. The 1024 blocks tile the result
  (entry `q` lies in the block of point `q / 16384`), so after the run the result array is that function.
-/
import proofs.«116027_j1391569403986_2_alg».proof.Proof.Gen.KernelIdeal.Value
import proofs.«116027_j1391569403986_2_alg».proof.Proof.BlockDensity
import Idealize.ShloMosaic.Lib.Pipeline.Value

noncomputable section

namespace Cert.KernelIdeal.Dens

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-- Row r of the output block the body leaves, from the two input blocks as loaded whole. -/
theorem out_row (P0 : Vec Ideal S16384x2 .f32) (P1 : Vec Ideal S2 .f32) (r : Fin 16384) :
    out0_2 (F := Ideal) P0 P1 (ix1 r) = Cert.Density.atPoint (fun k => P0 (ix2 r k)) (fun k => P1 (ix1 k)) := by
  unfold out0_2
  rw [View.ld_unit_zero (S := S16384x2) off2, View.ld_unit_zero (S := S2) off1]
  exact (canon2_eq P0 P1 (ix1 r)).trans (block_row P0 P1 r)

/-- If the input block's row r is the array's row q, and the staged centre is the centre, then entry r of the output block
    is entry q of the whole-array function. -/
theorem out_row_of (P0 : Vec Ideal S16384x2 .f32) (P1 : Vec Ideal S2 .f32)
    (x : (⟨2, ![16777216, 2]⟩ : Shape).Idx → EReal) (mu : (⟨1, ![2]⟩ : Shape).Idx → EReal)
    (r : Fin 16384) (q : Fin 16777216)
    (h0 : ∀ k : Fin 2, P0 (ix2 r k) = x (ix2 q k)) (h1 : ∀ k : Fin 2, P1 (ix1 k) = mu (ix1 k)) :
    out0_2 (F := Ideal) P0 P1 (ix1 r) = Cert.Density.ofArray x mu (ix1 q) :=
  (out_row P0 P1 r).trans (Cert.Density.atPoint_congr h0 h1)

/-- The printed index maps over the grid: the points' window moves with the point along the rows and stays at column
    block 0; the centre's window stays at block 0. -/
theorem idx_in : ∀ t : Fin cfg0.N, win0_0.index t (0 : Fin 2) = t.val ∧ win0_0.index t (1 : Fin 2) = 0
    ∧ win0_1.index t (0 : Fin 1) = 0 :=
  (by decide +kernel : ∀ t : Fin grid0.N, _)

theorem pt_lt (t : Fin cfg0.N) : t.val < 1024 := Nat.lt_of_lt_of_eq t.isLt N_0

/-- What point t writes back is block t of the whole-array function of the two arguments. -/
theorem flushed_eq (c : Dev nD) (t : Fin cfg0.N) :
    (dats m 0 c).flushed 2 t
      = ((cfg0.win 2).blk t).view.read (Elt Ideal) (Cert.Density.ofArray (V m c main_arg0) (V m c main_arg1)) := by
  rw [flushed2]
  have ht := pt_lt t
  obtain ⟨e00, e01, e10⟩ := idx_in t
  show (fun j : S16384.Idx => out0_2 (iblk m c 0 t) (iblk m c 1 t) j)
    = fun j : S16384.Idx => Cert.Density.ofArray (V m c main_arg0) (V m c main_arg1) (((cfg0.win 2).blk t).view.emb j)
  funext j
  obtain ⟨r, rfl⟩ : ∃ r : Fin 16384, j = ix1 r := ⟨j 0, eq_ix1 j⟩
  have hr := r.isLt
  have hq : ((cfg0.win 2).blk t).view.emb (ix1 r) = ix1 (⟨t.val * 16384 + r.val, by omega⟩ : Fin 16777216) := by
    funext a
    apply Fin.ext
    match a with
    | ⟨0, _⟩ =>
      show win0_2.index t ⟨0, by decide⟩ * 16384 + 1 * r.val = t.val * 16384 + r.val
      rw [idx_pt2 t]; omega
  rw [hq]
  refine out_row_of (iblk m c 0 t) (iblk m c 1 t) (V m c main_arg0) (V m c main_arg1) r _ (fun k => ?_) (fun k => ?_)
  · show V m c main_arg0 (((cfg0.win 0).blk t).view.emb (ix2 r k)) = V m c main_arg0 (ix2 (⟨t.val * 16384 + r.val, by omega⟩ : Fin 16777216) k)
    refine congrArg (V m c main_arg0) ?_
    funext a
    apply Fin.ext
    have hk := k.isLt
    match a with
    | ⟨0, _⟩ =>
      show win0_0.index t (0 : Fin 2) * 16384 + 1 * r.val = t.val * 16384 + r.val
      rw [e00]; omega
    | ⟨1, _⟩ =>
      show win0_0.index t (1 : Fin 2) * 2 + 1 * k.val = k.val
      rw [e01]; omega
  · show V m c main_arg1 (((cfg0.win 1).blk t).view.emb (ix1 k)) = V m c main_arg1 (ix1 k)
    refine congrArg (V m c main_arg1) ?_
    funext a
    apply Fin.ext
    match a with
    | ⟨0, _⟩ =>
      show win0_1.index t (0 : Fin 1) * 2 + 1 * k.val = k.val
      rw [e10]; omega

/-- An entry of the result is in point t's block iff it lies in the block's range of 16384 entries. -/
theorem mem_blk (t : Fin cfg0.N) (i : S16777216.Idx) :
    i ∈ ((cfg0.win 2).blk t).view.set ↔ ∀ a : Fin 1, win0_2.index t a * S16384.size a ≤ (i a).val
      ∧ (i a).val < win0_2.index t a * S16384.size a + S16384.size a := by
  show i ∈ ((View.whole main_v0).slice (win0_2.rect t)).set ↔ _
  rw [View.set_slice_whole, Rect.mem_set_unit]
  exact Iff.rfl

/-- The blocks tile the result: entry q is in the block of point q / 16384, which writes back. -/
theorem cover (i : S16777216.Idx) :
    ∃ t : Fin cfg0.N, (cfg0.win 2).flush t = true ∧ i ∈ ((cfg0.win 2).blk t).view.set := by
  have hi : (i 0).val < 16777216 := (i 0).isLt
  have hN : cfg0.N = 1024 := N_0
  refine ⟨⟨(i 0).val / 16384, by rw [hN]; omega⟩, flush0_2 _, ?_⟩
  rw [mem_blk]
  intro a
  match a with
  | ⟨0, _⟩ =>
    show win0_2.index ⟨(i 0).val / 16384, _⟩ ⟨0, by decide⟩ * 16384 ≤ (i 0).val
      ∧ (i 0).val < win0_2.index ⟨(i 0).val / 16384, _⟩ ⟨0, by decide⟩ * 16384 + 16384
    rw [idx_pt2]
    show (i 0).val / 16384 * 16384 ≤ (i 0).val ∧ (i 0).val < (i 0).val / 16384 * 16384 + 16384
    omega

/-- The result array after the run is the density of every row of the argument. -/
theorem final (c : Dev nD) :
    (dats m 0 c).arrAt 2 cfg0.N
      = Cert.Density.ofArray (m ((c : Thread nD τ).loc main_arg0)) (m ((c : Thread nD τ).loc main_arg1)) :=
  (dats m 0 c).arrAt_eq_of_cover 2 (Cert.Density.ofArray (V m c main_arg0) (V m c main_arg1))
    (fun t _ => flushed_eq m c t) cover

/-- The run, read: every weakly fair execution ends with the result array at the density of every row and the two
    arguments unchanged. -/
theorem run : θ_run defs (onTc (τ := τ) (main (F := Ideal))) ⟨m, fun _ => 0, ρ⟩ fun r => ∀ c : Dev nD,
      r.2.mem ((c : Thread nD τ).loc main_v0)
        = Cert.Density.ofArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Dens

end
-- ==== Proof.RefDensity.lean ====
/-
  The reference's result is the density of every row.

  The host program subtracts the centre, broadcast along the rows, from the points; squares; sums each row's two squares
  from a zero initial value; scales by the constant; multiplies by -1/2; exponentiates; multiplies by one. Read at an
  index `i` through the generated one-operation-at-a-time lemmas this is `Density.atPoint` of row `i`: the two broadcasts
  read the centre at the column, the reduction reads the row at its two columns, and the zero initial value drops out of
  the sum (`0 + s = s` holds for every extended real `s`).
-/
import proofs.«116027_j1391569403986_2_alg».proof.Proof.Gen.ReferenceIdeal.Read
import proofs.«116027_j1391569403986_2_alg».proof.Proof.Density

noncomputable section

namespace Cert.ReferenceIdeal.Dens

open Cert.ReferenceIdeal Cert.ReferenceIdeal.Gen Cert.ReferenceIdeal.Read
open Idealize.ShloMosaic Idealize.ShloMosaic.ValueIdx

/-- The reduction reads row `i` at column `k`. -/
theorem idx_row (r : Fin 16777216) (k : Fin 2) : idx_main_v4 (ix1 r) k = ix2 r k :=
  funext fun a => Fin.ext (by match a with | ⟨0, _⟩ => rfl | ⟨1, _⟩ => rfl)

/-- The two broadcasts of the centre read it at the column of the index. -/
theorem idx_col (r : Fin 16777216) (k : Fin 2) : idx_main_v0 (idx_main_v1 (ix2 r k)) = ix1 k :=
  funext fun a => Fin.ext (by match a with | ⟨0, _⟩ => rfl)

/-- The reference's last stage, as a function of the two arguments, is the density of every row. -/
theorem result_eq (x0 : (⟨S16777216x2, .f32⟩ : BufTy).Contents (Elt Ideal)) (x1 : (⟨S2, .f32⟩ : BufTy).Contents (Elt Ideal)) :
    val_main_v11 (F := Ideal) x0 x1 = Cert.Density.ofArray x0 x1 := by
  funext i
  obtain ⟨r, rfl⟩ : ∃ r : Fin 16777216, i = ix1 r := ⟨i 0, eq_ix1 i⟩
  rw [val_main_v11_apply, val_main_v10_apply, val_main_cst_2_apply, val_main_v9_apply, val_main_v8_apply,
    val_main_v7_apply, val_main_cst_1_apply, val_main_v6_apply, val_main_v5_apply, val_main_cst_0_apply,
    val_main_v4_apply, val_main_cst_apply]
  simp only [val_main_v3_apply, val_main_v2_apply, val_main_v1_apply, val_main_v0_apply, idx_row, idx_col,
    Ideal.mulf_def, Ideal.subf_def, Ideal.hostUnary_exp_def, Ideal.ofBits_def, Ideal.ofBits_zero_f32, zero_add]
  rfl

end Cert.ReferenceIdeal.Dens

end
-- ==== Proof.lean ====
/-
  The kernel against its reference: the unnormalised isotropic Gaussian density of 16777216 points of the plane.

  Both programs compute, for row `r` of the points `x` and the centre `mu`,
      one * exp (negHalf * ((∑ k : Fin 2, (x r k - mu k) * (x r k - mu k)) * scale))
  with the same three binary32 constants. The kernel does it block by block, 1024 blocks of 16384 rows, each block's
  squared distances by a sum along the last axis of the block; the reference does it on the whole array with the host's
  reduction from a zero initial value. Over the extended reals the two are one function of the arguments
  (`Cert.Density.ofArray`): a sum of two terms is the same sum however it is taken, and adding the zero initial value
  changes nothing; no law used needs the inputs finite, so the precondition is never opened.

  - Proof/Density.lean: the function, stated once.
  - Proof/RefDensity.lean: the reference's result term is that function (read one operation at a time).
  - Proof/BlockDensity.lean: one row of what the kernel body leaves in an output block.
  - Proof/KernelDensity.lean: every grid point writes back a block of that function, the blocks tile the result, so the
    kernel's result array is that function.
  Here: the three runs (each program terminates without a fault and leaves its arguments as they were), the
  idealization's ledger (empty), and the two results set side by side.
-/
import proofs.«116027_j1391569403986_2_alg».proof.Defs
import proofs.«116027_j1391569403986_2_alg».proof.Proof.Gen.Kernel
import proofs.«116027_j1391569403986_2_alg».proof.Proof.Gen.Kernel.Skeleton
import proofs.«116027_j1391569403986_2_alg».proof.Proof.Gen.Kernel.Launch
import proofs.«116027_j1391569403986_2_alg».proof.Proof.Gen.Kernel.Points
import proofs.«116027_j1391569403986_2_alg».proof.Proof.Gen.Kernel.Frame
import proofs.«116027_j1391569403986_2_alg».proof.Proof.Gen.KernelIdeal
import proofs.«116027_j1391569403986_2_alg».proof.Proof.Gen.KernelIdeal.Skeleton
import proofs.«116027_j1391569403986_2_alg».proof.Proof.Gen.KernelIdeal.Launch
import proofs.«116027_j1391569403986_2_alg».proof.Proof.Gen.KernelIdeal.Points
import proofs.«116027_j1391569403986_2_alg».proof.Proof.Gen.KernelIdeal.Frame
import proofs.«116027_j1391569403986_2_alg».proof.Proof.Gen.ReferenceIdeal
import proofs.«116027_j1391569403986_2_alg».proof.Proof.Gen.Pre_finite_inputs
import proofs.«116027_j1391569403986_2_alg».proof.Proof.Gen.KernelIdeal.Value
import proofs.«116027_j1391569403986_2_alg».proof.Proof.Gen.ReferenceIdeal.Run
import proofs.«116027_j1391569403986_2_alg».proof.Proof.Gen.ReferenceIdeal.Read
import proofs.«116027_j1391569403986_2_alg».proof.Proof.KernelDensity
import proofs.«116027_j1391569403986_2_alg».proof.Proof.RefDensity
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- From memories that agree on the points and the centre, the kernel's result array and the reference's both end at the
    density of every row of the same arguments. -/
theorem algebraic : Cert.algebraic_KernelIdeal_ReferenceIdeal := by
  intro m ρ m' ρ' _ hagree
  refine ⟨_, Cert.KernelIdeal.Dens.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v11_eq]
  exact Cert.ReferenceIdeal.Dens.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
